-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x40 : Shape := ⟨2, ![100000, 40]⟩
abbrev S5000x40 : Shape := ⟨2, ![5000, 40]⟩
abbrev S3300000x40 : Shape := ⟨2, ![3300000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x40, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x40, .f32⟩
  | .hbm, ⟨75, _⟩ => ⟨S3300000x1, .f32⟩
  | .hbm, ⟨76, _⟩ => ⟨S3300000x40, .f32⟩
  | .hbm, ⟨77, _⟩ => ⟨S3300000x40, .f32⟩
  | .hbm, ⟨78, _⟩ => ⟨S_, .f32⟩
  | .hbm, ⟨79, _⟩ => ⟨S100000x40, .f32⟩
  | .hbm, ⟨80, _⟩ => ⟨S3300000x1, .i32⟩
  | .hbm, ⟨81, _⟩ => ⟨S100000x40, .f32⟩
  | .hbm, ⟨82, _⟩ => ⟨S1x40, .f32⟩
  | .hbm, ⟨83, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x40_S5000x40_1_0_0_1_n_n_wf : DotDims.WF S5000x16 S16x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x40, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x40, .f32⟩
  | .hbm, ⟨79, _⟩ => ⟨S3300000x1, .f32⟩
  | .hbm, ⟨80, _⟩ => ⟨S3300000x40, .f32⟩
  | .hbm, ⟨81, _⟩ => ⟨S3300000x40, .f32⟩
  | .hbm, ⟨82, _⟩ => ⟨S_, .f32⟩
  | .hbm, ⟨83, _⟩ => ⟨S100000x40, .f32⟩
  | .hbm, ⟨84, _⟩ => ⟨S3300000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x40, .f32⟩
  | .hbm, ⟨103, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.Spec.lean ====
/-
  The reference's dense stages as functions of the arrays a layer starts from.

  A two-layer graph convolution ends each layer with a row-wise step on the aggregated messages `agg`:
  layer one adds the bias row to every row and clamps at zero; layer two adds the bias row and takes the
  logarithm of the softmax of each row, written as jax writes it: with M(r) the maximum over the row r of v
  (taken once more against −∞), s(r, l) = v(r, l) − M(r), the result is s(r, l) − log Σ_l' exp s(r, l').
  Here these steps are spelt with the reference's own operations, over an arbitrary aggregate and an arbitrary
  1×n bias row, so that the reference's stage is the function at its own aggregate and its own row (by unfolding),
  and a kernel's output array can be compared with the same function at the kernel's arrays.
-/
import proofs.«102966_j41506563949058_1_alg».proof.Proof.RefRead

noncomputable section

namespace Cert.GcnSpec

open Cert.ReferenceIdeal Cert.ReferenceIdeal.Gen Cert.ReferenceIdeal.ReadP Idealize.ShloMosaic Idealize.ShloMosaic.TcCoe

variable {F : FTy → Type} [FloatOps F]

/-- Layer one's last step: every row of `agg` plus the bias row, clamped below at zero. -/
def biasRelu (agg : (⟨S100000x16, .f32⟩ : BufTy).Contents (Elt F)) (row : (⟨S1x16, .f32⟩ : BufTy).Contents (Elt F)) :
    (⟨S100000x16, .f32⟩ : BufTy).Contents (Elt F) :=
  maximumf (addf agg (broadcastInDim S100000x16 ![0, 1] bcast_S1x16_S100000x16_0_1 row)) (val_main_call1_v0 (F := F))

/-- The maximum of each row (against −∞ once more), spread over the row's lanes. -/
def rowMaxLanes (v : (⟨S100000x40, .f32⟩ : BufTy).Contents (Elt F)) : (⟨S100000x40, .f32⟩ : BufTy).Contents (Elt F) :=
  broadcastInDim S100000x40 ![0, 1] bcast_S100000x1_S100000x40_0_1
    (broadcastInDim S100000x1 ![0] bcast_S100000_S100000x1_0
      (maximumf (val_main_call2_v1 (F := F))
        (Host.reduce FloatOps.maximumf v (val_main_call2_cst (F := F)) reducesTo_S100000x40_S100000_d1 h_S_)))

/-- Each entry minus its row's maximum. -/
def shiftRows (v : (⟨S100000x40, .f32⟩ : BufTy).Contents (Elt F)) : (⟨S100000x40, .f32⟩ : BufTy).Contents (Elt F) :=
  subf v (rowMaxLanes v)

/-- The logarithm of the softmax of each row: the shifted entry minus the logarithm of the row's sum of
    exponentials of shifted entries. -/
def logSoftmaxRows (v : (⟨S100000x40, .f32⟩ : BufTy).Contents (Elt F)) : (⟨S100000x40, .f32⟩ : BufTy).Contents (Elt F) :=
  subf (shiftRows v)
    (broadcastInDim S100000x40 ![0, 1] bcast_S100000x1_S100000x40_0_1
      (Host.log (broadcastInDim S100000x1 ![0] bcast_S100000_S100000x1_0
        (Host.reduceAdd (Host.exp (shiftRows v)) (val_main_call2_cst_1 (F := F)) reducesTo_S100000x40_S100000_d1 h_S_))))

/-- Layer two's last step: every row of `agg` plus the bias row, then the logarithm of the softmax of each row. -/
def biasLogSoftmax (agg : (⟨S100000x40, .f32⟩ : BufTy).Contents (Elt F)) (row : (⟨S1x40, .f32⟩ : BufTy).Contents (Elt F)) :
    (⟨S100000x40, .f32⟩ : BufTy).Contents (Elt F) :=
  logSoftmaxRows (addf agg (broadcastInDim S100000x40 ![0, 1] bcast_S1x40_S100000x40_0_1 row))

/-- Layer two's product on whole arrays: the hidden layer times the 16×40 weight matrix. -/
def product2 (h : (⟨S100000x16, .f32⟩ : BufTy).Contents (Elt F)) (w : (⟨S16x40, .f32⟩ : BufTy).Contents (Elt F)) :
    (⟨S100000x40, .f32⟩ : BufTy).Contents (Elt F) :=
  Host.dotGeneral dot_S100000x16_S16x40_S100000x40_1_0_0_1_n_n none h w

variable (x0 : (⟨S100000x512, .f32⟩ : BufTy).Contents (Elt F)) (x1 : (⟨S2x3200000, .i32⟩ : BufTy).Contents (Elt F))
  (x2 : (⟨S512x16, .f32⟩ : BufTy).Contents (Elt F)) (x3 : (⟨S16, .f32⟩ : BufTy).Contents (Elt F))
  (x4 : (⟨S16x40, .f32⟩ : BufTy).Contents (Elt F)) (x5 : (⟨S40, .f32⟩ : BufTy).Contents (Elt F))

/-- The reference's hidden layer is `biasRelu` of its own aggregate and its own bias row. -/
theorem hidden_eq : val_main_v47 (F := F) x0 x1 x2 x3 = biasRelu (val_main_v43 (F := F) x0 x1 x2) (val_main_v44 (F := F) x3) := by
  unfold val_main_v47 val_main_v46 val_main_v45 biasRelu
  rfl

/-- The reference's second product is `product2` of its own hidden layer and the weight argument. -/
theorem product2_eq : val_main_v48 (F := F) x0 x1 x2 x3 x4 = product2 (val_main_v47 (F := F) x0 x1 x2 x3) x4 := by
  unfold val_main_v48 product2
  rfl

/-- The reference's result is `biasLogSoftmax` of its own aggregate and its own bias row. -/
theorem result_eq : val_main_v65 (F := F) x0 x1 x2 x3 x4 x5
    = biasLogSoftmax (val_main_v61 (F := F) x0 x1 x2 x3 x4) (val_main_v62 (F := F) x5) := by
  unfold val_main_v65 val_main_call2_v10 val_main_call2_v9 val_main_call2_v8 val_main_call2_v7 val_main_call2_v6
    val_main_call2_v5 val_main_call2_v4 val_main_call2_v3 val_main_call2_v2 val_main_call2_v0 val_main_v64 val_main_v63
    biasLogSoftmax logSoftmaxRows shiftRows rowMaxLanes
  rfl

end Cert.GcnSpec

end
-- ==== Proof.RefValue.lean ====
/-
  The reference's run ends at its result stage.

  The reference's @main is a list of 98 host operations; after them the result buffer holds the fold of the
  operations over the launch memory, read at that buffer. Up to the sum of the second layer's aggregate and its
  bias row this fold is the reference's stage of that name, by rewriting each operation's result. The last
  fifteen operations are the logarithm of the softmax of each row. For them the fold is read once over ARBITRARY
  row-maximum, row-sum, exponential and logarithm functions — the shape of the computation does not depend on
  what these four are —: from any contents v of the summed buffer the result buffer ends at
  s − log-of-row-sum(exp s) spread over the lanes, s = v − (row maximum of v, taken once more against −∞) spread
  over the lanes. At the reference's own four functions this is its result stage.
-/
import proofs.«102966_j41506563949058_1_alg».proof.Proof.RefRead
import proofs.«102966_j41506563949058_1_alg».proof.Proof.Spec
import Idealize.ShloMosaic.Lib.StableHlo.Run
import Idealize.ShloMosaic.Lib.Pipeline.Frame

noncomputable section

namespace Cert.ReferenceIdeal.Tail

open Cert.ReferenceIdeal Cert.ReferenceIdeal.Gen Cert.ReferenceIdeal.ReadP Cert.ReferenceIdeal.ValueP Cert.GcnSpec
open Idealize.ShloMosaic Idealize.ShloMosaic.TcCoe Idealize.SL.Sem Idealize.ShloMosaic.StableHlo

variable {F : FTy → Type} [FloatOps F]

section Shape

variable (rowMax rowSum : (⟨S100000x40, .f32⟩ : BufTy).Contents (Elt F) → (⟨S_, .f32⟩ : BufTy).Contents (Elt F) → (⟨S100000, .f32⟩ : BufTy).Contents (Elt F))
  (expAll : (⟨S100000x40, .f32⟩ : BufTy).Contents (Elt F) → (⟨S100000x40, .f32⟩ : BufTy).Contents (Elt F)) (logAll : (⟨S100000x1, .f32⟩ : BufTy).Contents (Elt F) → (⟨S100000x1, .f32⟩ : BufTy).Contents (Elt F))

/-- The last fifteen operations of @main, over arbitrary row-maximum, row-sum, exponential and logarithm functions. -/
abbrev lastOps : List (HloOp τ sig (Elt F)) :=
  [ TRef.nullary (TRef.of (T := ⟨S_, .f32⟩) main_call2_cst) (constant S_ .f32 0xFF800000#32),
    TRef.binary (TRef.of (T := ⟨S100000x40, .f32⟩) main_v64) (TRef.of (T := ⟨S_, .f32⟩) main_call2_cst) (TRef.of (T := ⟨S100000, .f32⟩) main_call2_v0) rowMax,
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v64) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) expAll,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) rowSum,
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) logAll,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v65) subf ]

/-- What they compute from the contents v of the summed buffer. -/
def lastValue (v : (⟨S100000x40, .f32⟩ : BufTy).Contents (Elt F)) : (⟨S100000x40, .f32⟩ : BufTy).Contents (Elt F) :=
  subf
    (subf v (broadcastInDim S100000x40 ![0, 1] bcast_S100000x1_S100000x40_0_1 (broadcastInDim S100000x1 ![0] bcast_S100000_S100000x1_0
      (maximumf (broadcastInDim S100000 ![] bcast_S_S100000 (constant S_ .f32 0xFF800000#32)) (rowMax v (constant S_ .f32 0xFF800000#32))))))
    (broadcastInDim S100000x40 ![0, 1] bcast_S100000x1_S100000x40_0_1 (logAll (broadcastInDim S100000x1 ![0] bcast_S100000_S100000x1_0
      (rowSum (expAll (subf v (broadcastInDim S100000x40 ![0, 1] bcast_S100000x1_S100000x40_0_1 (broadcastInDim S100000x1 ![0] bcast_S100000_S100000x1_0
        (maximumf (broadcastInDim S100000 ![] bcast_S_S100000 (constant S_ .f32 0xFF800000#32)) (rowMax v (constant S_ .f32 0xFF800000#32)))))))
        (constant S_ .f32 0x00000000#32)))))

/-- After the last fifteen operations, from any contents, the result buffer holds `lastValue` of the summed buffer. -/
theorem last_result (W : Valuation τ sig (Elt F)) :
    after (lastOps rowMax rowSum expAll logAll) W (Proc.devRef .tc main_v65)
      = lastValue rowMax rowSum expAll logAll (W (Proc.devRef .tc main_v64)) := by
  dsimp only [lastOps]
  after_results_simp
  rfl

/-- They do not write the summed buffer. -/
theorem last_keeps (W : Valuation τ sig (Elt F)) :
    after (lastOps rowMax rowSum expAll logAll) W (Proc.devRef .tc main_v64) = W (Proc.devRef .tc main_v64) := by
  dsimp only [lastOps]
  after_results_simp

end Shape

/-! ## At the reference's own functions -/

/-- The reference's row maximum and row sum. -/
abbrev refRowMax : (⟨S100000x40, .f32⟩ : BufTy).Contents (Elt F) → (⟨S_, .f32⟩ : BufTy).Contents (Elt F) → (⟨S100000, .f32⟩ : BufTy).Contents (Elt F) :=
  fun x v => Host.reduce FloatOps.maximumf x v reducesTo_S100000x40_S100000_d1 h_S_
abbrev refRowSum : (⟨S100000x40, .f32⟩ : BufTy).Contents (Elt F) → (⟨S_, .f32⟩ : BufTy).Contents (Elt F) → (⟨S100000, .f32⟩ : BufTy).Contents (Elt F) :=
  fun x v => Host.reduceAdd x v reducesTo_S100000x40_S100000_d1 h_S_

/-- @main's operations are the first 83 followed by the last fifteen at the reference's functions. -/
theorem ops_split : (ops : List (HloOp τ sig (Elt F)))
    = List.take 83 ops ++ lastOps (refRowMax (F := F)) (refRowSum (F := F)) Host.exp Host.log := by
  rfl

/-- At the reference's functions `lastValue` is the logarithm of the softmax of each row, as the reference spells it. -/
theorem lastValue_ref (v : (⟨S100000x40, .f32⟩ : BufTy).Contents (Elt F)) :
    lastValue (refRowMax (F := F)) (refRowSum (F := F)) Host.exp Host.log v = logSoftmaxRows (F := F) v := by
  unfold lastValue logSoftmaxRows shiftRows rowMaxLanes val_main_call2_v1 val_main_call2_cst_0 val_main_call2_cst val_main_call2_cst_1
  rfl

variable (m : (ℓ : Loc nD τ sig) → Buf (Elt F) ℓ) (c : Dev nD)

/-- The fold over all operations is the fold of the last fifteen over the fold of the first 83. -/
theorem fold_split : after (ops (F := F)) (launchContents m c)
    = after (lastOps (refRowMax (F := F)) (refRowSum (F := F)) Host.exp Host.log) (after (List.take 83 ops) (launchContents m c)) :=
  (congrArg (fun l => after l (launchContents m c)) ops_split).trans (StableHlo.after_append _ _ _)

set_option maxHeartbeats 39200000 in
/-- After all operations the summed buffer holds the reference's stage of that name. -/
theorem sum_stage : after (ops (F := F)) (launchContents m c) (Proc.devRef .tc main_v64)
    = val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  after_results_simp
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  rfl

/-- The logarithm of the softmax of the summed stage is the result stage. -/
theorem logSoftmax_sum_stage : logSoftmaxRows (F := F) (val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
    = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [result_eq]
  unfold biasLogSoftmax val_main_v64 val_main_v63
  rfl

/-- After all operations the result buffer holds the reference's result stage of the arguments' launch contents. -/
theorem result_stage : after (ops (F := F)) (launchContents m c) (Proc.devRef .tc main_v65)
    = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h64 : after (List.take 83 (ops (F := F))) (launchContents m c) (Proc.devRef .tc main_v64)
      = val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
    (last_keeps _ _ _ _ _).symm.trans ((congrFun (fold_split m c) _).symm.trans (sum_stage m c))
  refine (congrFun (fold_split m c) _).trans ((last_result _ _ _ _ _).trans ?_)
  rw [h64, lastValue_ref]
  exact logSoftmax_sum_stage m c

end Cert.ReferenceIdeal.Tail

end
-- ==== Proof.KRun.lean ====
/-
  The kernel program's run with its result kept.

  @main is nine segments: three stretches of host operations, the first matrix-product region, a stretch, the
  bias-and-clamp region, the second matrix-product region, a stretch, the bias-and-log-softmax region. The
  generated frame follows the contents of every unscoped buffer through these segments as a fold from the
  launch memory, ending at the valuation `W9`, and reads the six argument arrays back from it. Here the same
  launch is read once more at the result buffer: in every final state the result array is `W9` at that buffer,
  and the arguments are as launched.
-/
import proofs.«102966_j41506563949058_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- From any memory with zero counters every weakly fair execution of @main terminates, nothing faulting, with
    the result array at the last boundary's contents `W9` and the argument arrays as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.Region0.lean ====
/-
  The first matrix-product region: its output array is the whole product.

  The region walks the 100000 rows of x in 20 blocks of 5000. At block t the body multiplies rows
  5000·t … 5000·t+4999 of x by the whole 512×16 weight matrix into a zero accumulator and writes the 5000×16
  result back as rows 5000·t … of the output. Entry (p, q) of that block is Σ_c x(5000·t+p, c)·w(c, q), which is
  entry (5000·t+p, q) of the one product x·w the reference computes; the 20 blocks tile the output's rows, so
  after the region the output array is that product.
-/
import proofs.«102966_j41506563949058_1_alg».proof.Proof.Gen.KernelIdeal.Frame
import proofs.«102966_j41506563949058_1_alg».proof.Proof.RefRead
import proofs.«102966_j41506563949058_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)

theorem zero_start0 : (![0, 0] : Fin 2 → Nat) = fun _ => 0 := funext fun a => by fin_cases a <;> rfl

/-- The body's product at one entry: the sum over the contracted coordinate. -/
theorem product0_apply (x0 : Vec Ideal S5000x512 .f32) (x1 : Vec Ideal S512x16 .f32) (p : Fin 5000) (q : Fin 16) :
    k0_pay1 (F := Ideal) x0 x1 (ix2 p q) = ∑ c : Fin 512, x0 (ix2 p c) * x1 (ix2 c q) := by
  unfold k0_pay1
  exact Cert.PlainDot.matmul_zero_apply (m := 5000) (k := 512) (n := 16) _ rfl none _ _ p q

/-- The reference's product at one entry. -/
theorem wholeProduct0_apply (A : (⟨Cert.ReferenceIdeal.S100000x512, .f32⟩ : BufTy).Contents (Elt Ideal))
    (W : (⟨Cert.ReferenceIdeal.S512x16, .f32⟩ : BufTy).Contents (Elt Ideal)) (r : Fin 100000) (q : Fin 16) :
    Cert.ReferenceIdeal.ReadP.val_main_v30 (F := Ideal) A W (ix2 r q) = ∑ c : Fin 512, A (ix2 r c) * W (ix2 c q) := by
  unfold Cert.ReferenceIdeal.ReadP.val_main_v30
  simp only [Host.dotGeneral]
  exact Cert.PlainDot.dotGeneral_apply (m := 100000) (k := 512) (n := 16) _ rfl none _ _ _ r q

variable (V : (c : Dev nD) → (b : Ref sig .tc) → Buf (Elt Ideal) ((c : Thread nD τ).loc b))

/-- The printed index maps over the grid: block t of the left operand and of the output starts at row block t,
    the right operand's one block is the whole matrix. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every grid point is below twenty. -/
theorem point_lt0 (t : Fin cfg0.N) : t.val < 20 := lt_of_lt_of_eq t.isLt N_0

/-- Block t of the left operand, at (p, k): the operand at row 5000·t + p, column k. -/
theorem read0_0 (c : Dev nD) (t : Fin cfg0.N) (p : Fin 5000) (k : Fin 512) (r : Fin 100000)
    (hr : r.val = 5000 * t.val + p.val) : iblk0 V c 0 t (ix2 p k) = V c main_arg0 (ix2 r k) := by
  obtain ⟨e0, e1, -⟩ := index0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 512 + 1 * k.val = k.val; omega

/-- The right operand's one block is the whole matrix. -/
theorem read0_1 (c : Dev nD) (t : Fin cfg0.N) (k : Fin 512) (q : Fin 16) :
    iblk0 V c 1 t (ix2 k q) = V c main_arg2 (ix2 k q) := by
  obtain ⟨-, -, e2, e3, -⟩ := index0 t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 512 + 1 * k.val = k.val; omega
  | ⟨1, _⟩ => show win0_1.index t (1 : Fin 2) * 16 + 1 * q.val = q.val; omega

/-- Entry (p, q) of the output's block t sits at row 5000·t + p of the array. -/
theorem emb0_2 (t : Fin cfg0.N) (p : Fin 5000) (q : Fin 16) (r : Fin 100000) (hr : r.val = 5000 * t.val + p.val) :
    ((cfg0.win 2).blk t).view.emb (ix2 p q) = ix2 r q := by
  obtain ⟨-, -, -, -, e4, e5⟩ := index0 t
  refine funext fun a => Fin.ext ?_
  match a with
  | ⟨0, _⟩ => show win0_2.index t (0 : Fin 2) * 5000 + 1 * p.val = r.val; omega
  | ⟨1, _⟩ => show win0_2.index t (1 : Fin 2) * 16 + 1 * q.val = q.val; omega

/-- What point t writes back is block t of the whole product of the arrays the region finds. -/
theorem flushed0 (c : Dev nD) (t : Fin cfg0.N) :
    (dat0 V c).flushed 2 t = ((cfg0.win 2).blk t).view.read (Elt Ideal)
      (Cert.ReferenceIdeal.ReadP.val_main_v30 (F := Ideal) (V c main_arg0) (V c main_arg2)) := by
  show (cfg0.win 2).cut (grid0.coords t) ((dat0 V c).after 2 t) = _
  rw [after0_2]
  unfold out0_2
  rw [View.canon_unit_zero zero_start0]
  simp only [View.ld_unit_zero (S := S5000x512) zero_start0, View.ld_unit_zero (S := S512x16) zero_start0]
  funext j
  obtain ⟨p, q, rfl⟩ : ∃ (p : Fin 5000) (q : Fin 16), j = ix2 p q := ⟨j 0, j 1, eq_ix2 j⟩
  have ht := point_lt0 t
  obtain ⟨r, hr⟩ : ∃ r : Fin 100000, r.val = 5000 * t.val + p.val :=
    ⟨⟨5000 * t.val + p.val, by have := p.isLt; omega⟩, rfl⟩
  show k0_pay1 (iblk0 V c 0 t) (iblk0 V c 1 t) (ix2 p q)
    = Cert.ReferenceIdeal.ReadP.val_main_v30 (F := Ideal) (V c main_arg0) (V c main_arg2) (((cfg0.win 2).blk t).view.emb (ix2 p q))
  rw [emb0_2 t p q r hr]
  refine (product0_apply _ _ p q).trans ?_
  refine (Finset.sum_congr rfl fun k _ => ?_).trans (wholeProduct0_apply _ _ r q).symm
  rw [read0_0 V c t p k r hr, read0_1 V c t k q]

/-- An index of the output array is in point t's block iff each coordinate is in the block's range. -/
theorem mem_blk0 (t : Fin cfg0.N) (i : S100000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v30).slice (win0_2.rect t)).set ↔ _
  rw [View.set_slice_whole, Rect.mem_set_unit]
  exact Iff.rfl

/-- The twenty blocks tile the rows: row r is in block r / 5000. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, e4, e5⟩ := index0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 16 ≤ (i 1).val ∧ (i 1).val < win0_2.index t (1 : Fin 2) * 16 + 16
    omega

/-- After the region its output array is the whole product of the two arrays it was entered with. -/
theorem arr0 (c : Dev nD) : (dat0 V c).arrAt 2 cfg0.N
    = Cert.ReferenceIdeal.ReadP.val_main_v30 (F := Ideal) (V c main_arg0) (V c main_arg2) :=
  (dat0 V c).arrAt_eq_of_cover 2 _ (fun t _ => flushed0 V c t) cover0

end Cert.KernelIdeal.Whole

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.Region1.lean ====
/-
  The first layer's closing region: its output array is the whole array's step.

  The region walks the 100000 rows of the aggregated messages in 20 blocks of 5000. At block t the body adds the 1×16
  bias row to rows 5000·t … 5000·t+4999 and clamps every entry below at zero, and writes the 5000×16 result back as
  rows 5000·t … of the output. Entry (p, q) of that block is max(a(5000·t+p, q) + b(0, q), 0), which is entry
  (5000·t+p, q) of the same step taken over the whole array at once; the 20 blocks tile the output's rows, so after
  the region the output array is that step of the two arrays the region was entered with.
-/
import proofs.«102966_j41506563949058_1_alg».proof.Proof.Gen.KernelIdeal.Frame
import proofs.«102966_j41506563949058_1_alg».proof.Proof.Spec
import proofs.«102966_j41506563949058_1_alg».proof.Proof.LibRowVector
import proofs.«102966_j41506563949058_1_alg».proof.Proof.LibRowInDim
import Idealize.ShloMosaic.Lib.Pipeline.Value
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)

theorem zero_start1 : (![0, 0] : Fin 2 → Nat) = fun _ => 0 := funext fun a => by fin_cases a <;> rfl

/-- The body's value as one term: the block plus the bias row spread over the rows, against a zero splat. -/
theorem k1_pay1_eq (x0 : Vec Ideal S5000x16 .f32) (x1 : Vec Ideal S1x16 .f32) :
    k1_pay1 (F := Ideal) x0 x1
      = maximumf (addf (shapeCast S5000x16 x0 shapeCasts_S5000x16_S5000x16)
          (broadcastTo S5000x16 (shapeCast S1x16 x1 shapeCasts_S1x16_S1x16) broadcasts_S1x16_S5000x16))
        (broadcast S5000x16 (Scalar.ofBits .f32 0x00000000#32)) := rfl

/-- The body's value at one entry: the block's entry plus the bias row's lane, clamped below at zero. -/
theorem clamp1_apply (x0 : Vec Ideal S5000x16 .f32) (x1 : Vec Ideal S1x16 .f32) (p : Fin 5000) (q : Fin 16) :
    k1_pay1 (F := Ideal) x0 x1 (ix2 p q)
      = max (x0 (ix2 p q) + x1 (ix2 (0 : Fin 1) q)) (Ideal.ofBits .f32 0x00000000#32) := by
  rw [k1_pay1_eq, shapeCast_self, shapeCast_self]
  refine (maximumf_apply _ _ _).trans ?_
  refine congrArg₂ max ?_ rfl
  refine (addf_apply _ _ _).trans ?_
  exact congrArg (x0 (ix2 p q) + ·) (Cert.RowVector.broadcastTo_row (R := 5000) (n := 16) (by decide) x1 _ p q)

/-- The whole array's step at one entry. -/
theorem biasRelu_apply (agg : (⟨Cert.ReferenceIdeal.S100000x16, .f32⟩ : BufTy).Contents (Elt Ideal))
    (row : (⟨Cert.ReferenceIdeal.S1x16, .f32⟩ : BufTy).Contents (Elt Ideal)) (r : Fin 100000) (q : Fin 16) :
    Cert.GcnSpec.biasRelu (F := Ideal) agg row (ix2 r q)
      = max (agg (ix2 r q) + row (ix2 (0 : Fin 1) q)) (Ideal.ofBits .f32 0x00000000#32) := by
  unfold Cert.GcnSpec.biasRelu
  refine (maximumf_apply _ _ _).trans ?_
  refine congrArg₂ max ?_ ?_
  · refine (addf_apply _ _ _).trans ?_
    exact congrArg (agg (ix2 r q) + ·)
      (Cert.RowInDim.broadcastInDim_rows (R := 100000) (n := 16) (by decide) row _ r q)
  · exact (Cert.ReferenceIdeal.ReadP.val_main_call1_v0_apply (F := Ideal) (ix2 r q)).trans rfl

variable (V : (c : Dev nD) → (b : Ref sig .tc) → Buf (Elt Ideal) ((c : Thread nD τ).loc b))

/-- The printed index maps over the grid: block t of the aggregate and of the output starts at row block t, the bias
    row's one block is the whole row. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every grid point is below twenty. -/
theorem point_lt1 (t : Fin cfg1.N) : t.val < 20 := lt_of_lt_of_eq t.isLt N_1

/-- Block t of the aggregate, at (p, k): the aggregate at row 5000·t + p, lane k. -/
theorem read1_0 (c : Dev nD) (t : Fin cfg1.N) (p : Fin 5000) (k : Fin 16) (r : Fin 100000)
    (hr : r.val = 5000 * t.val + p.val) : iblk1 V c 0 t (ix2 p k) = V c main_v43 (ix2 r k) := by
  obtain ⟨e0, e1, -⟩ := index1 t
  show V c main_v43 (((cfg1.win 0).blk t).view.emb (ix2 p k)) = V c main_v43 (ix2 r k)
  refine congrArg (V c main_v43) (funext fun a => Fin.ext ?_)
  match a with
  | ⟨0, _⟩ => show win1_0.index t (0 : Fin 2) * 5000 + 1 * p.val = r.val; omega
  | ⟨1, _⟩ => show win1_0.index t (1 : Fin 2) * 16 + 1 * k.val = k.val; omega

/-- The bias row's one block is the whole row. -/
theorem read1_1 (c : Dev nD) (t : Fin cfg1.N) (u : Fin 1) (q : Fin 16) :
    iblk1 V c 1 t (ix2 u q) = V c main_v44 (ix2 u q) := by
  obtain ⟨-, -, e2, e3, -⟩ := index1 t
  show V c main_v44 (((cfg1.win 1).blk t).view.emb (ix2 u q)) = V c main_v44 (ix2 u q)
  refine congrArg (V c main_v44) (funext fun a => Fin.ext ?_)
  match a with
  | ⟨0, _⟩ => show win1_1.index t (0 : Fin 2) * 1 + 1 * u.val = u.val; omega
  | ⟨1, _⟩ => show win1_1.index t (1 : Fin 2) * 16 + 1 * q.val = q.val; omega

/-- Entry (p, q) of the output's block t sits at row 5000·t + p of the array. -/
theorem emb1_2 (t : Fin cfg1.N) (p : Fin 5000) (q : Fin 16) (r : Fin 100000) (hr : r.val = 5000 * t.val + p.val) :
    ((cfg1.win 2).blk t).view.emb (ix2 p q) = ix2 r q := by
  obtain ⟨-, -, -, -, e4, e5⟩ := index1 t
  refine funext fun a => Fin.ext ?_
  match a with
  | ⟨0, _⟩ => show win1_2.index t (0 : Fin 2) * 5000 + 1 * p.val = r.val; omega
  | ⟨1, _⟩ => show win1_2.index t (1 : Fin 2) * 16 + 1 * q.val = q.val; omega

/-- What point t writes back is block t of the whole array's step on the arrays the region finds. -/
theorem flushed1 (c : Dev nD) (t : Fin cfg1.N) :
    (dat1 V c).flushed 2 t = ((cfg1.win 2).blk t).view.read (Elt Ideal)
      (Cert.GcnSpec.biasRelu (F := Ideal) (V c main_v43) (V c main_v44)) := by
  show (cfg1.win 2).cut (grid1.coords t) ((dat1 V c).after 2 t) = _
  rw [after1_2]
  unfold out1_2
  rw [View.canon_unit_zero zero_start1]
  simp only [View.ld_unit_zero (S := S5000x16) zero_start1, View.ld_unit_zero (S := S1x16) zero_start1]
  funext j
  obtain ⟨p, q, rfl⟩ : ∃ (p : Fin 5000) (q : Fin 16), j = ix2 p q := ⟨j 0, j 1, eq_ix2 j⟩
  have ht := point_lt1 t
  obtain ⟨r, hr⟩ : ∃ r : Fin 100000, r.val = 5000 * t.val + p.val :=
    ⟨⟨5000 * t.val + p.val, by have := p.isLt; omega⟩, rfl⟩
  show k1_pay1 (iblk1 V c 0 t) (iblk1 V c 1 t) (ix2 p q)
    = Cert.GcnSpec.biasRelu (F := Ideal) (V c main_v43) (V c main_v44) (((cfg1.win 2).blk t).view.emb (ix2 p q))
  rw [emb1_2 t p q r hr]
  refine (clamp1_apply _ _ p q).trans ?_
  refine Eq.trans ?_ (biasRelu_apply _ _ r q).symm
  rw [read1_0 V c t p q r hr, read1_1 V c t 0 q]

/-- An index of the output array is in point t's block iff each coordinate is in the block's range. -/
theorem mem_blk1 (t : Fin cfg1.N) (i : S100000x16.Idx) :
    i ∈ ((cfg1.win 2).blk t).view.set ↔ ∀ a : Fin 2, win1_2.index t a * S5000x16.size a ≤ (i a).val
      ∧ (i a).val < win1_2.index t a * S5000x16.size a + S5000x16.size a := by
  show i ∈ ((View.whole main_v45).slice (win1_2.rect t)).set ↔ _
  rw [View.set_slice_whole, Rect.mem_set_unit]
  exact Iff.rfl

/-- The twenty blocks tile the rows: row r is in block r / 5000. -/
theorem cover1 (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, e4, e5⟩ := index1 t
  refine ⟨t, flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 16 ≤ (i 1).val ∧ (i 1).val < win1_2.index t (1 : Fin 2) * 16 + 16
    omega

/-- After the region its output array is the first layer's closing step of the two arrays it was entered with. -/
theorem arr1 (c : Dev nD) : (dat1 V c).arrAt 2 cfg1.N
    = Cert.GcnSpec.biasRelu (F := Ideal) (V c main_v43) (V c main_v44) :=
  (dat1 V c).arrAt_eq_of_cover 2 _ (fun t _ => flushed1 V c t) cover1

end Cert.KernelIdeal.Whole

end
-- ==== Proof.Region2.lean ====
/-
  The second matrix-product region: its output array is the whole product.

  The region walks the 100000 rows of the hidden layer h in 20 blocks of 5000. At block t the body multiplies
  rows 5000·t … 5000·t+4999 of h by the whole 16×40 weight matrix into a zero accumulator and writes the 5000×40
  result back as rows 5000·t … of the output. Entry (p, q) of that block is Σ_c h(5000·t+p, c)·w(c, q), entry
  (5000·t+p, q) of the one product h·w the reference computes; the 20 blocks tile the output's rows, so after the
  region the output array is that product.
-/
import proofs.«102966_j41506563949058_1_alg».proof.Proof.Gen.KernelIdeal.Frame
import proofs.«102966_j41506563949058_1_alg».proof.Proof.Spec
import proofs.«102966_j41506563949058_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)

theorem zero_start2 : (![0, 0] : Fin 2 → Nat) = fun _ => 0 := funext fun a => by fin_cases a <;> rfl

/-- The body's product at one entry: the sum over the contracted coordinate. -/
theorem product2_apply (x0 : Vec Ideal S5000x16 .f32) (x1 : Vec Ideal S16x40 .f32) (p : Fin 5000) (q : Fin 40) :
    k2_pay1 (F := Ideal) x0 x1 (ix2 p q) = ∑ c : Fin 16, x0 (ix2 p c) * x1 (ix2 c q) := by
  unfold k2_pay1
  rw [shapeCast_self]
  exact Cert.PlainDot.matmul_zero_apply (m := 5000) (k := 16) (n := 40) _ rfl none _ _ p q

/-- The reference's product at one entry. -/
theorem wholeProduct2_apply (A : (⟨Cert.ReferenceIdeal.S100000x16, .f32⟩ : BufTy).Contents (Elt Ideal))
    (W : (⟨Cert.ReferenceIdeal.S16x40, .f32⟩ : BufTy).Contents (Elt Ideal)) (r : Fin 100000) (q : Fin 40) :
    Cert.GcnSpec.product2 (F := Ideal) A W (ix2 r q) = ∑ c : Fin 16, A (ix2 r c) * W (ix2 c q) := by
  unfold Cert.GcnSpec.product2
  simp only [Host.dotGeneral]
  exact Cert.PlainDot.dotGeneral_apply (m := 100000) (k := 16) (n := 40) _ rfl none _ _ _ r q

variable (V : (c : Dev nD) → (b : Ref sig .tc) → Buf (Elt Ideal) ((c : Thread nD τ).loc b))

/-- The printed index maps over the grid: block t of the left operand and of the output starts at row block t,
    the right operand's one block is the whole matrix. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every grid point is below twenty. -/
theorem point_lt2 (t : Fin cfg2.N) : t.val < 20 := lt_of_lt_of_eq t.isLt N_2

/-- Block t of the left operand, at (p, k): the operand at row 5000·t + p, column k. -/
theorem read2_0 (c : Dev nD) (t : Fin cfg2.N) (p : Fin 5000) (k : Fin 16) (r : Fin 100000)
    (hr : r.val = 5000 * t.val + p.val) : iblk2 V c 0 t (ix2 p k) = V c main_v45 (ix2 r k) := by
  obtain ⟨e0, e1, -⟩ := index2 t
  show V c main_v45 (((cfg2.win 0).blk t).view.emb (ix2 p k)) = V c main_v45 (ix2 r k)
  refine congrArg (V c main_v45) (funext fun a => Fin.ext ?_)
  match a with
  | ⟨0, _⟩ => show win2_0.index t (0 : Fin 2) * 5000 + 1 * p.val = r.val; omega
  | ⟨1, _⟩ => show win2_0.index t (1 : Fin 2) * 16 + 1 * k.val = k.val; omega

/-- The right operand's one block is the whole matrix. -/
theorem read2_1 (c : Dev nD) (t : Fin cfg2.N) (k : Fin 16) (q : Fin 40) :
    iblk2 V c 1 t (ix2 k q) = V c main_arg4 (ix2 k q) := by
  obtain ⟨-, -, e2, e3, -⟩ := index2 t
  show V c main_arg4 (((cfg2.win 1).blk t).view.emb (ix2 k q)) = V c main_arg4 (ix2 k q)
  refine congrArg (V c main_arg4) (funext fun a => Fin.ext ?_)
  match a with
  | ⟨0, _⟩ => show win2_1.index t (0 : Fin 2) * 16 + 1 * k.val = k.val; omega
  | ⟨1, _⟩ => show win2_1.index t (1 : Fin 2) * 40 + 1 * q.val = q.val; omega

/-- Entry (p, q) of the output's block t sits at row 5000·t + p of the array. -/
theorem emb2_2 (t : Fin cfg2.N) (p : Fin 5000) (q : Fin 40) (r : Fin 100000) (hr : r.val = 5000 * t.val + p.val) :
    ((cfg2.win 2).blk t).view.emb (ix2 p q) = ix2 r q := by
  obtain ⟨-, -, -, -, e4, e5⟩ := index2 t
  refine funext fun a => Fin.ext ?_
  match a with
  | ⟨0, _⟩ => show win2_2.index t (0 : Fin 2) * 5000 + 1 * p.val = r.val; omega
  | ⟨1, _⟩ => show win2_2.index t (1 : Fin 2) * 40 + 1 * q.val = q.val; omega

/-- What point t writes back is block t of the whole product of the arrays the region finds. -/
theorem flushed2 (c : Dev nD) (t : Fin cfg2.N) :
    (dat2 V c).flushed 2 t = ((cfg2.win 2).blk t).view.read (Elt Ideal)
      (Cert.GcnSpec.product2 (F := Ideal) (V c main_v45) (V c main_arg4)) := by
  show (cfg2.win 2).cut (grid2.coords t) ((dat2 V c).after 2 t) = _
  rw [after2_2]
  unfold out2_2
  rw [View.canon_unit_zero zero_start2]
  simp only [View.ld_unit_zero (S := S5000x16) zero_start2, View.ld_unit_zero (S := S16x40) zero_start2]
  funext j
  obtain ⟨p, q, rfl⟩ : ∃ (p : Fin 5000) (q : Fin 40), j = ix2 p q := ⟨j 0, j 1, eq_ix2 j⟩
  have ht := point_lt2 t
  obtain ⟨r, hr⟩ : ∃ r : Fin 100000, r.val = 5000 * t.val + p.val :=
    ⟨⟨5000 * t.val + p.val, by have := p.isLt; omega⟩, rfl⟩
  show k2_pay1 (iblk2 V c 0 t) (iblk2 V c 1 t) (ix2 p q)
    = Cert.GcnSpec.product2 (F := Ideal) (V c main_v45) (V c main_arg4) (((cfg2.win 2).blk t).view.emb (ix2 p q))
  rw [emb2_2 t p q r hr]
  refine (product2_apply _ _ p q).trans ?_
  refine (Finset.sum_congr rfl fun k _ => ?_).trans (wholeProduct2_apply _ _ r q).symm
  rw [read2_0 V c t p k r hr, read2_1 V c t k q]

/-- An index of the output array is in point t's block iff each coordinate is in the block's range. -/
theorem mem_blk2 (t : Fin cfg2.N) (i : S100000x40.Idx) :
    i ∈ ((cfg2.win 2).blk t).view.set ↔ ∀ a : Fin 2, win2_2.index t a * S5000x40.size a ≤ (i a).val
      ∧ (i a).val < win2_2.index t a * S5000x40.size a + S5000x40.size a := by
  show i ∈ ((View.whole main_v46).slice (win2_2.rect t)).set ↔ _
  rw [View.set_slice_whole, Rect.mem_set_unit]
  exact Iff.rfl

/-- The twenty blocks tile the rows: row r is in block r / 5000. -/
theorem cover2 (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  obtain ⟨-, -, -, -, e4, e5⟩ := index2 t
  refine ⟨t, flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 40 ≤ (i 1).val ∧ (i 1).val < win2_2.index t (1 : Fin 2) * 40 + 40
    omega

/-- After the region its output array is the whole product of the two arrays it was entered with. -/
theorem arr2 (c : Dev nD) : (dat2 V c).arrAt 2 cfg2.N
    = Cert.GcnSpec.product2 (F := Ideal) (V c main_v45) (V c main_arg4) :=
  (dat2 V c).arrAt_eq_of_cover 2 _ (fun t _ => flushed2 V c t) cover2

end Cert.KernelIdeal.Whole

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.LibKeepdims.lean ====
/-
  A vector of row statistics carried to a matrix, read at an index: the cast of a length-`a` vector to an
  `[a, 1]` column reads its entry at the row, and the column broadcast to `[a, b]` reads the column's entry at
  the row whatever the lane. Also: a fold of `max` is above the value it starts from, so taking the maximum
  with that start once more changes nothing.
-/
import Idealize.ShloMosaic.Lib.Pipeline.Value
import Idealize.ShloMosaic.Lib.ValueIdx
import Mathlib.Data.Finset.Fold

namespace Idealize.ShloMosaic.Keepdims

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a row statistic spread over the lanes of its row. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A fold of `max` from `b` is at least `b`: the maximum of `b` and the fold is the fold. -/
theorem max_fold_max_self {ι β : Type} [LinearOrder β] (s : Finset ι) (b : β) (f : ι → β) :
    max b (s.fold max b f) = s.fold max b f :=
  max_eq_right ((Finset.le_fold_max (c := b)).2 (Or.inl le_rfl))

end Idealize.ShloMosaic.Keepdims
-- ==== Proof.LibColumnInDim.lean ====
/-
  A per-row vector carried to a matrix by the host's `broadcast_in_dim`, read at an entry.

  * `broadcastInDim_column`: a length-a vector broadcast along axis 0 into an a×1 column holds, at (i, u), the
    vector's entry i.
  * `broadcastInDim_lanes`: an a×1 column broadcast along both axes into a×b holds, at (p, c), the column's entry
    of row p, whatever the lane c.
  * `shapeCast_column` and `shapeCast_eq_broadcastInDim`: a reshape of the vector to a×1 holds the same entries,
    so the reshape and the broadcast are one array.
-/
import Idealize.ShloMosaic.Lib.Pipeline.Value
import Idealize.ShloMosaic.Lib.ValueIdx

noncomputable section

namespace Cert.ColumnInDim

open Idealize.ShloMosaic Idealize.ShloMosaic.ValueIdx

variable {α : Type} {a b : Nat}

/-- The vector broadcast along axis 0 into an a×1 column, at (i, u): the vector at i. -/
theorem broadcastInDim_column (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by
      show i.val = if a = 1 then 0 else i.val
      split
      · have := i.isLt; omega
      · rfl)

/-- The column broadcast along both axes into a×b, at (p, c): the column at (p, 0). -/
theorem broadcastInDim_lanes (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else c.val
      rw [if_pos rfl])

/-- The vector reshaped to an a×1 column, at (i, u): the vector at i. -/
theorem shapeCast_column (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- So the reshape and the broadcast are one array. -/
theorem shapeCast_eq_broadcastInDim (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_column, broadcastInDim_column]

end Cert.ColumnInDim

end
-- ==== Proof.LogSoftmaxBlock.lean ====
/-
  The last step of the second layer on one block of 5000 rows, read at one entry and compared with the same step over
  the whole array.

  For a row v of 40 lanes, M its maximum folded from −∞ and s(l) = v(l) − M, the step's value at lane l is
  s(l) − log Σ_k exp s(k). The block computes exactly this for each of its rows, with v = the block's row plus the bias
  row. The whole-array form takes the maximum of −∞ and the fold once more before subtracting; a fold of `max` from −∞
  is at least −∞, so that extra maximum changes nothing, and the two forms agree entry by entry: the block's row p is
  the whole array's row 5000·t + p. No arithmetic of extended reals is opened: equal subterms are rewritten, nothing more.
-/
import proofs.«102966_j41506563949058_1_alg».proof.Proof.Gen.KernelIdeal.Skeleton
import proofs.«102966_j41506563949058_1_alg».proof.Proof.Spec
import Idealize.ShloMosaic.Lib.IdealHost
import proofs.«102966_j41506563949058_1_alg».proof.Proof.LibRowOps
import proofs.«102966_j41506563949058_1_alg».proof.Proof.LibKeepdims
import proofs.«102966_j41506563949058_1_alg».proof.Proof.LibColumnInDim
import proofs.«102966_j41506563949058_1_alg».proof.Proof.LibRowVector
import proofs.«102966_j41506563949058_1_alg».proof.Proof.LibRowInDim

noncomputable section

namespace Cert.LogSoftmaxBlock

open Idealize.ShloMosaic Idealize.ShloMosaic.ValueIdx

section Block

open Cert.KernelIdeal Cert.KernelIdeal.Gen

/-- One row `v` of 40 lanes shifted by `M`, minus the logarithm of the sum of the exponentials of the shifted lanes. -/
def shiftedLogSumExp (v : Fin 40 → EReal) (M : EReal) (l : Fin 40) : EReal :=
  (v l - M) - Ideal.log (∑ k : Fin 40, Ideal.exp (v k - M))

/-- The maximum of a row of 40 lanes, folded from −∞. -/
def rowMaxFold (v : Fin 40 → EReal) : EReal :=
  (Finset.univ : Finset (Fin 40)).fold max (Ideal.ofBits .f32 0xFF800000#32) v

/-! ## The block's side -/

/-- The block with the bias row added to every row. -/
def blockBiased (x0 : Vec Ideal S5000x40 .f32) (x1 : Vec Ideal S1x40 .f32) : FVec Ideal S5000x40 .f32 :=
  addf (shapeCast S5000x40 x0 shapeCasts_S5000x40_S5000x40)
    (broadcastTo S5000x40 (shapeCast S1x40 x1 shapeCasts_S1x40_S1x40) broadcasts_S1x40_S5000x40)

/-- A 5000×40 array minus its row maxima (each folded from −∞). -/
def blockShift (v : FVec Ideal S5000x40 .f32) : FVec Ideal S5000x40 .f32 :=
  subf v (broadcastTo S5000x40
    (shapeCast S5000x1 (multiReduction .maximumf [1] S5000 v 0xFF800000#32 reduces_S5000x40_S5000 (.inl rfl) rfl)
      shapeCasts_S5000_S5000x1) broadcasts_S5000x1_S5000x40)

/-- A 5000×40 array minus the logarithm of its rows' sums of exponentials. -/
def blockLogNormalize (s : FVec Ideal S5000x40 .f32) : FVec Ideal S5000x40 .f32 :=
  subf s (broadcastTo S5000x40
    (log (shapeCast S5000x1 (multiReduction .add [1] S5000 (exp s) 0x00000000#32 reduces_S5000x40_S5000 (.inl rfl) rfl)
      shapeCasts_S5000_S5000x1)) broadcasts_S5000x1_S5000x40)

/-- The block's value is these three steps in turn. -/
theorem k3_pay1_eq (x0 : Vec Ideal S5000x40 .f32) (x1 : Vec Ideal S1x40 .f32) :
    k3_pay1 (F := Ideal) x0 x1 = blockLogNormalize (blockShift (blockBiased x0 x1)) := rfl

/-- The biased block at (q, k): the block's entry plus the bias row's lane k. -/
theorem blockBiased_apply (x0 : Vec Ideal S5000x40 .f32) (x1 : Vec Ideal S1x40 .f32) (q : Fin 5000) (k : Fin 40) :
    blockBiased x0 x1 (ix2 q k) = x0 (ix2 q k) + x1 (ix2 (0 : Fin 1) k) := by
  unfold blockBiased
  rw [shapeCast_self, shapeCast_self]
  refine (addf_apply _ _ _).trans ?_
  exact congrArg (x0 (ix2 q k) + ·) (Cert.RowVector.broadcastTo_row (R := 5000) (n := 40) (by decide) x1 _ q k)

/-- The shifted array at (q, k): the entry minus its row's maximum. -/
theorem blockShift_apply (v : FVec Ideal S5000x40 .f32) (q : Fin 5000) (k : Fin 40) :
    blockShift v (ix2 q k) = v (ix2 q k) - rowMaxFold (fun c => v (ix2 q c)) := by
  unfold blockShift rowMaxFold
  refine (subf_apply _ _ _).trans ?_
  refine congrArg (v (ix2 q k) - ·) ?_
  refine (Idealize.ShloMosaic.Keepdims.column_apply (a := 5000) (b := 40) _ _ _ q k).trans ?_
  exact RowOps.rowMax_apply (a := 5000) (b := 40) v _ _ _ _ q

/-- The normalized array at (q, l): the entry minus the logarithm of its row's sum of exponentials. -/
theorem blockLogNormalize_apply (s : FVec Ideal S5000x40 .f32) (q : Fin 5000) (l : Fin 40) :
    blockLogNormalize s (ix2 q l) = s (ix2 q l) - Ideal.log (∑ k : Fin 40, Ideal.exp (s (ix2 q k))) := by
  unfold blockLogNormalize
  refine (subf_apply _ _ _).trans ?_
  refine congrArg (s (ix2 q l) - ·) ?_
  refine (Idealize.ShloMosaic.Keepdims.broadcastTo_a1_ab_apply (a := 5000) (b := 40) _ _ q l).trans ?_
  show Ideal.log (shapeCast S5000x1 _ shapeCasts_S5000_S5000x1 (ix2 q (0 : Fin 1))) = _
  refine congrArg Ideal.log ?_
  refine (Idealize.ShloMosaic.Keepdims.shapeCast_a_a1_apply (a := 5000) _ _ q 0).trans ?_
  exact RowOps.rowSum_apply (a := 5000) (b := 40) (exp s) _ _ _ _ q

/-- The block's value at (p, l), in closed form. -/
theorem kernel_entry (x0 : Vec Ideal S5000x40 .f32) (x1 : Vec Ideal S1x40 .f32) (p : Fin 5000) (l : Fin 40) :
    k3_pay1 (F := Ideal) x0 x1 (ix2 p l)
      = shiftedLogSumExp (fun k => x0 (ix2 p k) + x1 (ix2 (0 : Fin 1) k))
          (rowMaxFold (fun k => x0 (ix2 p k) + x1 (ix2 (0 : Fin 1) k))) l := by
  rw [k3_pay1_eq]
  refine (blockLogNormalize_apply _ p l).trans ?_
  have hb : (fun c => blockBiased x0 x1 (ix2 p c)) = fun k => x0 (ix2 p k) + x1 (ix2 (0 : Fin 1) k) :=
    funext fun c => blockBiased_apply x0 x1 p c
  have hs : ∀ k : Fin 40, blockShift (blockBiased x0 x1) (ix2 p k)
      = (x0 (ix2 p k) + x1 (ix2 (0 : Fin 1) k)) - rowMaxFold (fun k => x0 (ix2 p k) + x1 (ix2 (0 : Fin 1) k)) := fun k => by
    rw [blockShift_apply, hb, blockBiased_apply]
  unfold shiftedLogSumExp
  rw [hs l]
  exact congrArg (_ - Ideal.log ·) (Finset.sum_congr rfl fun k _ => congrArg Ideal.exp (hs k))

end Block

/-! ## The whole array's side -/

section Whole

open Cert.ReferenceIdeal Cert.ReferenceIdeal.Gen Cert.ReferenceIdeal.ReadP Cert.GcnSpec

/-- The host's logarithm at an index is the logarithm of the entry. -/
theorem hostLog_apply {s : Shape} (x : FVec Ideal s .f32) (i : s.Idx) : Host.log x i = Ideal.log (x i) := rfl

/-- The host's exponential at an index is the exponential of the entry. -/
theorem hostExp_apply {s : Shape} (x : FVec Ideal s .f32) (i : s.Idx) : Host.exp x i = Ideal.exp (x i) := rfl

/-- The whole array plus the bias row, at (r, k): the entry plus the bias row's lane k. -/
theorem biased_apply (A : (⟨S100000x40, .f32⟩ : BufTy).Contents (Elt Ideal)) (B : (⟨S1x40, .f32⟩ : BufTy).Contents (Elt Ideal))
    (r : Fin 100000) (k : Fin 40) :
    addf (F := Ideal) (φ := .f32) A (broadcastInDim S100000x40 ![0, 1] bcast_S1x40_S100000x40_0_1 B) (ix2 r k)
      = A (ix2 r k) + B (ix2 (0 : Fin 1) k) := by
  refine (addf_apply _ _ _).trans ?_
  exact congrArg (A (ix2 r k) + ·) (Cert.RowInDim.broadcastInDim_rows (R := 100000) (n := 40) (by decide) B _ r k)

/-- The maximum over a row taken from −∞, at row r: the fold of `max` over the row's 40 lanes. -/
theorem hostRowMax_apply (v : (⟨S100000x40, .f32⟩ : BufTy).Contents (Elt Ideal)) (r : Fin 100000) :
    Host.reduce (FloatOps.maximumf (F := Ideal) (φ := .f32)) v (val_main_call2_cst (F := Ideal))
        reducesTo_S100000x40_S100000_d1 h_S_ (ix1 r)
      = rowMaxFold (fun c => v (ix2 r c)) := by
  have h : S100000x40.Reduces [1] S100000 := by decide
  refine (Host.reduce_eq_fold_single (FloatOps.maximumf (F := Ideal) (φ := .f32)) v _
    reducesTo_S100000x40_S100000_d1 h h_S_ (ix1 r)).trans ?_
  have hf : (v ∘ h.lift (ix1 r)) = fun k : Fin 40 => v (ix2 r k) :=
    funext fun k => congrArg v (RowOps.lift_row (a := 100000) (b := 40) h r k)
  unfold rowMaxFold
  exact congrArg (fun f => Finset.fold max (Ideal.ofBits .f32 0xFF800000#32) f (Finset.univ : Finset (Fin 40))) hf

/-- The row maxima spread over the lanes, at (r, k): the row's fold — the maximum with −∞ once more changes nothing. -/
theorem rowMaxLanes_apply (v : (⟨S100000x40, .f32⟩ : BufTy).Contents (Elt Ideal)) (r : Fin 100000) (k : Fin 40) :
    rowMaxLanes v (ix2 r k) = rowMaxFold (fun c => v (ix2 r c)) := by
  unfold rowMaxLanes
  refine (Cert.ColumnInDim.broadcastInDim_lanes (a := 100000) (b := 40) _ _ r k).trans ?_
  refine (Cert.ColumnInDim.broadcastInDim_column (a := 100000) _ _ r 0).trans ?_
  refine (maximumf_apply _ _ _).trans ?_
  rw [hostRowMax_apply v r]
  have h1 : val_main_call2_v1 (F := Ideal) (ix1 r) = Ideal.ofBits .f32 0xFF800000#32 :=
    (val_main_call2_v1_apply (F := Ideal) (ix1 r)).trans rfl
  rw [h1]
  exact Idealize.ShloMosaic.Keepdims.max_fold_max_self _ _ _

/-- The shifted array at (r, k): the entry minus its row's maximum. -/
theorem shiftRows_apply (v : (⟨S100000x40, .f32⟩ : BufTy).Contents (Elt Ideal)) (r : Fin 100000) (k : Fin 40) :
    shiftRows v (ix2 r k) = v (ix2 r k) - rowMaxFold (fun c => v (ix2 r c)) := by
  unfold shiftRows
  refine (subf_apply _ _ _).trans ?_
  exact congrArg (v (ix2 r k) - ·) (rowMaxLanes_apply v r k)

/-- The sum over a row from zero, at row r: the sum over the row's 40 lanes. -/
theorem hostRowSum_apply (y : (⟨S100000x40, .f32⟩ : BufTy).Contents (Elt Ideal)) (r : Fin 100000) :
    Host.reduceAdd (F := Ideal) (φ := .f32) y (val_main_call2_cst_1 (F := Ideal))
        reducesTo_S100000x40_S100000_d1 h_S_ (ix1 r)
      = ∑ k : Fin 40, y (ix2 r k) := by
  have h : S100000x40.Reduces [1] S100000 := by decide
  refine (hostReduceAdd_apply y _ reducesTo_S100000x40_S100000_d1 h_S_ (ix1 r)).trans ?_
  refine (Ideal.hostReduceAdd_single reducesTo_S100000x40_S100000_d1 h y _ (ix1 r)).trans ?_
  have h0 : val_main_call2_cst_1 (F := Ideal) (Shape.Idx.first h_S_) = 0 :=
    (val_main_call2_cst_1_apply (F := Ideal) _).trans Ideal.ofBits_zero_f32
  rw [h0, zero_add]
  exact Finset.sum_congr rfl fun k _ => congrArg y (RowOps.lift_row (a := 100000) (b := 40) h r k)

/-- The logarithm of the softmax of each row, at (r, l). -/
theorem logSoftmaxRows_apply (v : (⟨S100000x40, .f32⟩ : BufTy).Contents (Elt Ideal)) (r : Fin 100000) (l : Fin 40) :
    logSoftmaxRows v (ix2 r l)
      = shiftedLogSumExp (fun k => v (ix2 r k)) (rowMaxFold (fun c => v (ix2 r c))) l := by
  unfold logSoftmaxRows shiftedLogSumExp
  refine (subf_apply _ _ _).trans ?_
  rw [shiftRows_apply v r l]
  refine congrArg ((v (ix2 r l) - rowMaxFold (fun c => v (ix2 r c))) - ·) ?_
  refine (Cert.ColumnInDim.broadcastInDim_lanes (a := 100000) (b := 40) _ _ r l).trans ?_
  refine (hostLog_apply _ _).trans ?_
  refine congrArg Ideal.log ?_
  refine (Cert.ColumnInDim.broadcastInDim_column (a := 100000) _ _ r 0).trans ?_
  refine (hostRowSum_apply _ r).trans ?_
  refine Finset.sum_congr rfl fun k _ => ?_
  refine (hostExp_apply _ _).trans ?_
  exact congrArg Ideal.exp (shiftRows_apply v r k)

/-- The whole array's step at (r, l), in closed form. -/
theorem reference_entry (A : (⟨S100000x40, .f32⟩ : BufTy).Contents (Elt Ideal)) (B : (⟨S1x40, .f32⟩ : BufTy).Contents (Elt Ideal))
    (r : Fin 100000) (l : Fin 40) :
    biasLogSoftmax (F := Ideal) A B (ix2 r l)
      = shiftedLogSumExp (fun k => A (ix2 r k) + B (ix2 (0 : Fin 1) k))
          (rowMaxFold (fun k => A (ix2 r k) + B (ix2 (0 : Fin 1) k))) l := by
  unfold biasLogSoftmax
  refine (logSoftmaxRows_apply _ r l).trans ?_
  have hb : (fun k : Fin 40 => addf (F := Ideal) (φ := .f32) A (broadcastInDim S100000x40 ![0, 1] bcast_S1x40_S100000x40_0_1 B) (ix2 r k))
      = fun k => A (ix2 r k) + B (ix2 (0 : Fin 1) k) := funext fun k => biased_apply A B r k
  rw [hb]

end Whole

/-! ## The two sides joined -/

/-- At one entry the block's value is the whole array's step: the block is rows 5000·t … 5000·t + 4999 of `A`, the
    bias row is `B`. -/
theorem k3_pay1_eq_biasLogSoftmax (x0 : Vec Ideal Cert.KernelIdeal.S5000x40 .f32) (x1 : Vec Ideal Cert.KernelIdeal.S1x40 .f32)
    (A : (⟨Cert.ReferenceIdeal.S100000x40, .f32⟩ : BufTy).Contents (Elt Ideal))
    (B : (⟨Cert.ReferenceIdeal.S1x40, .f32⟩ : BufTy).Contents (Elt Ideal))
    (t : Fin 20)
    (hx0 : ∀ (p : Fin 5000) (l : Fin 40),
      x0 (ix2 p l) = A (ix2 (⟨5000 * t.val + p.val, by omega⟩ : Fin 100000) l))
    (hx1 : ∀ l : Fin 40, x1 (ix2 (0 : Fin 1) l) = B (ix2 (0 : Fin 1) l))
    (p : Fin 5000) (l : Fin 40) :
    Cert.KernelIdeal.Gen.k3_pay1 (F := Ideal) x0 x1 (ix2 p l)
      = Cert.GcnSpec.biasLogSoftmax (F := Ideal) A B (ix2 (⟨5000 * t.val + p.val, by omega⟩ : Fin 100000) l) := by
  refine (kernel_entry x0 x1 p l).trans ?_
  refine Eq.trans ?_ (reference_entry A B _ l).symm
  have hv : (fun k : Fin 40 => x0 (ix2 p k) + x1 (ix2 (0 : Fin 1) k))
      = fun k : Fin 40 => A (ix2 (⟨5000 * t.val + p.val, by omega⟩ : Fin 100000) k) + B (ix2 (0 : Fin 1) k) :=
    funext fun k => by rw [hx0 p k, hx1 k]
  rw [hv]

end Cert.LogSoftmaxBlock

end
-- ==== Proof.Region3.lean ====
/-
  The last region: its output array is the whole array's closing step.

  The region walks the 100000 rows of the aggregated messages in 20 blocks of 5000. At block t the body adds the 1×40
  bias row to rows 5000·t … 5000·t+4999, subtracts from each row its maximum, and then the logarithm of the row's sum of
  exponentials, and writes the 5000×40 result back as rows 5000·t … of the output. Entry (p, l) of that block is entry
  (5000·t+p, l) of the same step taken over the whole array at once; the 20 blocks tile the output's rows, so after the
  region the output array is that step of the two arrays the region was entered with.
-/
import proofs.«102966_j41506563949058_1_alg».proof.Proof.Gen.KernelIdeal.Frame
import proofs.«102966_j41506563949058_1_alg».proof.Proof.Spec
import proofs.«102966_j41506563949058_1_alg».proof.Proof.LogSoftmaxBlock
import Idealize.ShloMosaic.Lib.Pipeline.Value
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)

theorem zero_start3 : (![0, 0] : Fin 2 → Nat) = fun _ => 0 := funext fun a => by fin_cases a <;> rfl

variable (V : (c : Dev nD) → (b : Ref sig .tc) → Buf (Elt Ideal) ((c : Thread nD τ).loc b))

/-- The printed index maps over the grid: block t of the aggregate and of the output starts at row block t, the bias
    row's one block is the whole row. -/
theorem index3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every grid point is below twenty. -/
theorem point_lt3 (t : Fin cfg3.N) : t.val < 20 := lt_of_lt_of_eq t.isLt N_3

/-- Block t of the aggregate, at (p, k): the aggregate at row 5000·t + p, lane k. -/
theorem read3_0 (c : Dev nD) (t : Fin cfg3.N) (p : Fin 5000) (k : Fin 40) (r : Fin 100000)
    (hr : r.val = 5000 * t.val + p.val) : iblk3 V c 0 t (ix2 p k) = V c main_v59 (ix2 r k) := by
  obtain ⟨e0, e1, -⟩ := index3 t
  show V c main_v59 (((cfg3.win 0).blk t).view.emb (ix2 p k)) = V c main_v59 (ix2 r k)
  refine congrArg (V c main_v59) (funext fun a => Fin.ext ?_)
  match a with
  | ⟨0, _⟩ => show win3_0.index t (0 : Fin 2) * 5000 + 1 * p.val = r.val; omega
  | ⟨1, _⟩ => show win3_0.index t (1 : Fin 2) * 40 + 1 * k.val = k.val; omega

/-- The bias row's one block is the whole row. -/
theorem read3_1 (c : Dev nD) (t : Fin cfg3.N) (u : Fin 1) (l : Fin 40) :
    iblk3 V c 1 t (ix2 u l) = V c main_v60 (ix2 u l) := by
  obtain ⟨-, -, e2, e3, -⟩ := index3 t
  show V c main_v60 (((cfg3.win 1).blk t).view.emb (ix2 u l)) = V c main_v60 (ix2 u l)
  refine congrArg (V c main_v60) (funext fun a => Fin.ext ?_)
  match a with
  | ⟨0, _⟩ => show win3_1.index t (0 : Fin 2) * 1 + 1 * u.val = u.val; omega
  | ⟨1, _⟩ => show win3_1.index t (1 : Fin 2) * 40 + 1 * l.val = l.val; omega

/-- Entry (p, l) of the output's block t sits at row 5000·t + p of the array. -/
theorem emb3_2 (t : Fin cfg3.N) (p : Fin 5000) (l : Fin 40) (r : Fin 100000) (hr : r.val = 5000 * t.val + p.val) :
    ((cfg3.win 2).blk t).view.emb (ix2 p l) = ix2 r l := by
  obtain ⟨-, -, -, -, e4, e5⟩ := index3 t
  refine funext fun a => Fin.ext ?_
  match a with
  | ⟨0, _⟩ => show win3_2.index t (0 : Fin 2) * 5000 + 1 * p.val = r.val; omega
  | ⟨1, _⟩ => show win3_2.index t (1 : Fin 2) * 40 + 1 * l.val = l.val; omega

/-- What point t writes back is block t of the whole array's step on the arrays the region finds. -/
theorem flushed3 (c : Dev nD) (t : Fin cfg3.N) :
    (dat3 V c).flushed 2 t = ((cfg3.win 2).blk t).view.read (Elt Ideal)
      (Cert.GcnSpec.biasLogSoftmax (F := Ideal) (V c main_v59) (V c main_v60)) := by
  show (cfg3.win 2).cut (grid3.coords t) ((dat3 V c).after 2 t) = _
  rw [after3_2]
  unfold out3_2
  rw [View.canon_unit_zero zero_start3]
  simp only [View.ld_unit_zero (S := S5000x40) zero_start3, View.ld_unit_zero (S := S1x40) zero_start3]
  funext j
  obtain ⟨p, l, rfl⟩ : ∃ (p : Fin 5000) (l : Fin 40), j = ix2 p l := ⟨j 0, j 1, eq_ix2 j⟩
  have ht := point_lt3 t
  show k3_pay1 (iblk3 V c 0 t) (iblk3 V c 1 t) (ix2 p l)
    = Cert.GcnSpec.biasLogSoftmax (F := Ideal) (V c main_v59) (V c main_v60) (((cfg3.win 2).blk t).view.emb (ix2 p l))
  rw [emb3_2 t p l (⟨5000 * t.val + p.val, by have := p.isLt; omega⟩ : Fin 100000) rfl]
  exact Cert.LogSoftmaxBlock.k3_pay1_eq_biasLogSoftmax _ _ _ _ (⟨t.val, ht⟩ : Fin 20)
    (fun p' l' => read3_0 V c t p' l' _ rfl) (fun l' => read3_1 V c t 0 l') p l

/-- An index of the output array is in point t's block iff each coordinate is in the block's range. -/
theorem mem_blk3 (t : Fin cfg3.N) (i : S100000x40.Idx) :
    i ∈ ((cfg3.win 2).blk t).view.set ↔ ∀ a : Fin 2, win3_2.index t a * S5000x40.size a ≤ (i a).val
      ∧ (i a).val < win3_2.index t a * S5000x40.size a + S5000x40.size a := by
  show i ∈ ((View.whole main_v61).slice (win3_2.rect t)).set ↔ _
  rw [View.set_slice_whole, Rect.mem_set_unit]
  exact Iff.rfl

/-- The twenty blocks tile the rows: row r is in block r / 5000. -/
theorem cover3 (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  obtain ⟨t, ht⟩ : ∃ t : Fin cfg3.N, t.val = (i 0).val / 5000 :=
    ⟨⟨(i 0).val / 5000, lt_of_lt_of_eq (by omega : (i 0).val / 5000 < 20) N_3.symm⟩, rfl⟩
  obtain ⟨-, -, -, -, e4, e5⟩ := index3 t
  refine ⟨t, flush3_2 t, ?_⟩
  rw [mem_blk3]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 40 ≤ (i 1).val ∧ (i 1).val < win3_2.index t (1 : Fin 2) * 40 + 40
    omega

/-- After the region its output array is the closing step of the two arrays it was entered with. -/
theorem arr3 (c : Dev nD) : (dat3 V c).arrAt 2 cfg3.N
    = Cert.GcnSpec.biasLogSoftmax (F := Ideal) (V c main_v59) (V c main_v60) :=
  (dat3 V c).arrAt_eq_of_cover 2 _ (fun t _ => flushed3 V c t) cover3

end Cert.KernelIdeal.Whole

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.KValue.lean ====
/-
  The kernel program's result array as a function of its arguments.

  Between its four regions the kernel program runs the same host operations as the reference: the edge lists with
  the self loops appended, the degree of every node as a scatter-add of ones, its inverse square root where the
  degree is positive, the edge weight as the product of the two end nodes' values, and per layer a gather of the
  source rows, their scaling by the edge weight and a scatter-add into the target rows. This module follows the
  contents of the buffers through the nine segments: each stretch of host operations is read as the reference's
  own stage of the same name, each region's output array is the reference's stage by the region's module, and the
  buffers a segment does not write keep their contents. At the end the result buffer holds the reference's
  result stage at the launch contents of the six arguments.
-/
import proofs.«102966_j41506563949058_1_alg».proof.Proof.Gen.KernelIdeal.Frame
import proofs.«102966_j41506563949058_1_alg».proof.Proof.Spec
import proofs.«102966_j41506563949058_1_alg».proof.Proof.Region0
import proofs.«102966_j41506563949058_1_alg».proof.Proof.Region1
import proofs.«102966_j41506563949058_1_alg».proof.Proof.Region2
import proofs.«102966_j41506563949058_1_alg».proof.Proof.Region3
import proofs.«102966_j41506563949058_1_alg».proof.Proof.LibRowOfVector
import Idealize.ShloMosaic.Lib.StableHlo.Run

set_option maxRecDepth 16384

noncomputable section

namespace Cert.KernelIdeal.Whole

open Cert.KernelIdeal Cert.KernelIdeal.Gen Cert.ReferenceIdeal.ReadP Cert.GcnSpec
open Idealize.ShloMosaic Idealize.ShloMosaic.TcCoe Idealize.ShloMosaic.ValueIdx Idealize.SL.Sem Idealize.ShloMosaic.StableHlo

section Prefix

variable {F : FTy → Type} [FloatOps F]
variable (m : (ℓ : Loc nD τ sig) → Buf (Elt F) ℓ) (ρ : Dev nD → PrngReg) (c : Dev nD)

/-! ## Up to the first region, for any float values: the arguments, the edge lists, the edge weight

    (Stated for arbitrary float values: nothing here depends on what a float is.) -/

theorem pre_arg0 : W3 m ρ c (Proc.devRef .tc main_arg0) = m ((c : Thread nD τ).loc main_arg0) := by
  dsimp only [W3, W2, W1, hostOps0, hostOps0_1, hostOps0_2]
  after_results_simp <;> rfl
theorem pre_arg1 : W3 m ρ c (Proc.devRef .tc main_arg1) = m ((c : Thread nD τ).loc main_arg1) := by
  dsimp only [W3, W2, W1, hostOps0, hostOps0_1, hostOps0_2]
  after_results_simp <;> rfl
theorem pre_arg2 : W3 m ρ c (Proc.devRef .tc main_arg2) = m ((c : Thread nD τ).loc main_arg2) := by
  dsimp only [W3, W2, W1, hostOps0, hostOps0_1, hostOps0_2]
  after_results_simp <;> rfl
theorem pre_arg3 : W3 m ρ c (Proc.devRef .tc main_arg3) = m ((c : Thread nD τ).loc main_arg3) := by
  dsimp only [W3, W2, W1, hostOps0, hostOps0_1, hostOps0_2]
  after_results_simp <;> rfl
theorem pre_arg4 : W3 m ρ c (Proc.devRef .tc main_arg4) = m ((c : Thread nD τ).loc main_arg4) := by
  dsimp only [W3, W2, W1, hostOps0, hostOps0_1, hostOps0_2]
  after_results_simp <;> rfl
theorem pre_arg5 : W3 m ρ c (Proc.devRef .tc main_arg5) = m ((c : Thread nD τ).loc main_arg5) := by
  dsimp only [W3, W2, W1, hostOps0, hostOps0_1, hostOps0_2]
  after_results_simp <;> rfl

set_option maxHeartbeats 4000000 in
theorem pre_v3 : W3 m ρ c (Proc.devRef .tc main_v3) = val_main_v3 (F := F) (m ((c : Thread nD τ).loc main_arg1)) := by
  dsimp only [W3, W2, W1, hostOps0, hostOps0_1, hostOps0_2]
  after_results_simp
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  rfl

set_option maxHeartbeats 4000000 in
theorem pre_v6 : W3 m ρ c (Proc.devRef .tc main_v6) = val_main_v6 (F := F) (m ((c : Thread nD τ).loc main_arg1)) := by
  dsimp only [W3, W2, W1, hostOps0, hostOps0_1, hostOps0_2]
  after_results_simp
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  rfl

set_option maxHeartbeats 8000000 in
theorem pre_v29 : W3 m ρ c (Proc.devRef .tc main_v29) = val_main_v29 (F := F) (m ((c : Thread nD τ).loc main_arg1)) := by
  dsimp only [W3, W2, W1, hostOps0, hostOps0_1, hostOps0_2]
  after_results_simp
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  rfl

end Prefix

variable (m : (ℓ : Loc nD τ sig) → Buf (Elt Ideal) ℓ) (ρ : Dev nD → PrngReg) (c : Dev nD)

/-! ## The arguments' launch contents, at the reference's types -/

abbrev arg0 : (⟨Cert.ReferenceIdeal.S100000x512, .f32⟩ : BufTy).Contents (Elt Ideal) := m ((c : Thread nD τ).loc main_arg0)
abbrev arg1 : (⟨Cert.ReferenceIdeal.S2x3200000, .i32⟩ : BufTy).Contents (Elt Ideal) := m ((c : Thread nD τ).loc main_arg1)
abbrev arg2 : (⟨Cert.ReferenceIdeal.S512x16, .f32⟩ : BufTy).Contents (Elt Ideal) := m ((c : Thread nD τ).loc main_arg2)
abbrev arg3 : (⟨Cert.ReferenceIdeal.S16, .f32⟩ : BufTy).Contents (Elt Ideal) := m ((c : Thread nD τ).loc main_arg3)
abbrev arg4 : (⟨Cert.ReferenceIdeal.S16x40, .f32⟩ : BufTy).Contents (Elt Ideal) := m ((c : Thread nD τ).loc main_arg4)
abbrev arg5 : (⟨Cert.ReferenceIdeal.S40, .f32⟩ : BufTy).Contents (Elt Ideal) := m ((c : Thread nD τ).loc main_arg5)

/-! ## The same at the extended reals -/

theorem W3_arg0 : W3 m ρ c (Proc.devRef .tc main_arg0) = arg0 m c := pre_arg0 m ρ c
theorem W3_arg1 : W3 m ρ c (Proc.devRef .tc main_arg1) = arg1 m c := pre_arg1 m ρ c
theorem W3_arg2 : W3 m ρ c (Proc.devRef .tc main_arg2) = arg2 m c := pre_arg2 m ρ c
theorem W3_arg3 : W3 m ρ c (Proc.devRef .tc main_arg3) = arg3 m c := pre_arg3 m ρ c
theorem W3_arg4 : W3 m ρ c (Proc.devRef .tc main_arg4) = arg4 m c := pre_arg4 m ρ c
theorem W3_arg5 : W3 m ρ c (Proc.devRef .tc main_arg5) = arg5 m c := pre_arg5 m ρ c
theorem W3_v3 : W3 m ρ c (Proc.devRef .tc main_v3) = val_main_v3 (F := Ideal) (arg1 m c) := pre_v3 m ρ c
theorem W3_v6 : W3 m ρ c (Proc.devRef .tc main_v6) = val_main_v6 (F := Ideal) (arg1 m c) := pre_v6 m ρ c
theorem W3_v29 : W3 m ρ c (Proc.devRef .tc main_v29) = val_main_v29 (F := Ideal) (arg1 m c) := pre_v29 m ρ c

/-! ## The first region: the product x·W1 -/

theorem W4_v30 : W4 m ρ c (Proc.devRef .tc main_v30) = val_main_v30 (F := Ideal) (arg0 m c) (arg2 m c) := by
  refine (W4_arr m ρ c 2).trans ((arr0 (V3 m ρ) c).trans ?_)
  show val_main_v30 (F := Ideal) (W3 m ρ c (Proc.devRef .tc main_arg0)) (W3 m ρ c (Proc.devRef .tc main_arg2)) = _
  rw [W3_arg0, W3_arg2]

theorem W4_v3 : W4 m ρ c (Proc.devRef .tc main_v3) = val_main_v3 (F := Ideal) (arg1 m c) :=
  (W4_of_ne m ρ c main_v3 (by decide)).trans (W3_v3 m ρ c)
theorem W4_v6 : W4 m ρ c (Proc.devRef .tc main_v6) = val_main_v6 (F := Ideal) (arg1 m c) :=
  (W4_of_ne m ρ c main_v6 (by decide)).trans (W3_v6 m ρ c)
theorem W4_v29 : W4 m ρ c (Proc.devRef .tc main_v29) = val_main_v29 (F := Ideal) (arg1 m c) :=
  (W4_of_ne m ρ c main_v29 (by decide)).trans (W3_v29 m ρ c)
theorem W4_arg3 : W4 m ρ c (Proc.devRef .tc main_arg3) = arg3 m c :=
  (W4_of_ne m ρ c main_arg3 (by decide)).trans (W3_arg3 m ρ c)
theorem W4_arg4 : W4 m ρ c (Proc.devRef .tc main_arg4) = arg4 m c :=
  (W4_of_ne m ρ c main_arg4 (by decide)).trans (W3_arg4 m ρ c)
theorem W4_arg5 : W4 m ρ c (Proc.devRef .tc main_arg5) = arg5 m c :=
  (W4_of_ne m ρ c main_arg5 (by decide)).trans (W3_arg5 m ρ c)

/-! ## The first layer's messages, aggregated; the bias row -/

set_option maxHeartbeats 4000000 in
theorem W5_v43 : W5 m ρ c (Proc.devRef .tc main_v43) = val_main_v43 (F := Ideal) (arg0 m c) (arg1 m c) (arg2 m c) := by
  dsimp only [W5, hostOps1]
  after_results_simp
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  rw [W4_v30, W4_v3, W4_v6, W4_v29]
  rfl

theorem W5_v44 : W5 m ρ c (Proc.devRef .tc main_v44) = val_main_v44 (F := Ideal) (arg3 m c) := by
  dsimp only [W5, hostOps1]
  after_results_simp
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  rw [W4_arg3]
  exact Cert.RowOfVector.shapeCast_eq_broadcastInDim (n := 16) (by decide) _ _ _

theorem W5_v3 : W5 m ρ c (Proc.devRef .tc main_v3) = val_main_v3 (F := Ideal) (arg1 m c) := by
  refine Eq.trans ?_ (W4_v3 m ρ c)
  dsimp only [W5, hostOps1]
  after_results_simp <;> rfl
theorem W5_v6 : W5 m ρ c (Proc.devRef .tc main_v6) = val_main_v6 (F := Ideal) (arg1 m c) := by
  refine Eq.trans ?_ (W4_v6 m ρ c)
  dsimp only [W5, hostOps1]
  after_results_simp <;> rfl
theorem W5_v29 : W5 m ρ c (Proc.devRef .tc main_v29) = val_main_v29 (F := Ideal) (arg1 m c) := by
  refine Eq.trans ?_ (W4_v29 m ρ c)
  dsimp only [W5, hostOps1]
  after_results_simp <;> rfl
theorem W5_arg4 : W5 m ρ c (Proc.devRef .tc main_arg4) = arg4 m c := by
  refine Eq.trans ?_ (W4_arg4 m ρ c)
  dsimp only [W5, hostOps1]
  after_results_simp <;> rfl
theorem W5_arg5 : W5 m ρ c (Proc.devRef .tc main_arg5) = arg5 m c := by
  refine Eq.trans ?_ (W4_arg5 m ρ c)
  dsimp only [W5, hostOps1]
  after_results_simp <;> rfl

/-! ## The second region: bias and clamp -/

theorem W6_v45 : W6 m ρ c (Proc.devRef .tc main_v45) = val_main_v47 (F := Ideal) (arg0 m c) (arg1 m c) (arg2 m c) (arg3 m c) := by
  refine (W6_arr m ρ c 2).trans ((arr1 (V5 m ρ) c).trans ?_)
  show biasRelu (F := Ideal) (W5 m ρ c (Proc.devRef .tc main_v43)) (W5 m ρ c (Proc.devRef .tc main_v44)) = _
  rw [W5_v43, W5_v44, hidden_eq]

theorem W6_v3 : W6 m ρ c (Proc.devRef .tc main_v3) = val_main_v3 (F := Ideal) (arg1 m c) :=
  (W6_of_ne m ρ c main_v3 (by decide)).trans (W5_v3 m ρ c)
theorem W6_v6 : W6 m ρ c (Proc.devRef .tc main_v6) = val_main_v6 (F := Ideal) (arg1 m c) :=
  (W6_of_ne m ρ c main_v6 (by decide)).trans (W5_v6 m ρ c)
theorem W6_v29 : W6 m ρ c (Proc.devRef .tc main_v29) = val_main_v29 (F := Ideal) (arg1 m c) :=
  (W6_of_ne m ρ c main_v29 (by decide)).trans (W5_v29 m ρ c)
theorem W6_arg4 : W6 m ρ c (Proc.devRef .tc main_arg4) = arg4 m c :=
  (W6_of_ne m ρ c main_arg4 (by decide)).trans (W5_arg4 m ρ c)
theorem W6_arg5 : W6 m ρ c (Proc.devRef .tc main_arg5) = arg5 m c :=
  (W6_of_ne m ρ c main_arg5 (by decide)).trans (W5_arg5 m ρ c)

/-! ## The third region: the product h·W2 -/

theorem W7_v46 : W7 m ρ c (Proc.devRef .tc main_v46) = val_main_v48 (F := Ideal) (arg0 m c) (arg1 m c) (arg2 m c) (arg3 m c) (arg4 m c) := by
  refine (W7_arr m ρ c 2).trans ((arr2 (V6 m ρ) c).trans ?_)
  show product2 (F := Ideal) (W6 m ρ c (Proc.devRef .tc main_v45)) (W6 m ρ c (Proc.devRef .tc main_arg4)) = _
  rw [W6_v45, W6_arg4, product2_eq]

theorem W7_v3 : W7 m ρ c (Proc.devRef .tc main_v3) = val_main_v3 (F := Ideal) (arg1 m c) :=
  (W7_of_ne m ρ c main_v3 (by decide)).trans (W6_v3 m ρ c)
theorem W7_v6 : W7 m ρ c (Proc.devRef .tc main_v6) = val_main_v6 (F := Ideal) (arg1 m c) :=
  (W7_of_ne m ρ c main_v6 (by decide)).trans (W6_v6 m ρ c)
theorem W7_v29 : W7 m ρ c (Proc.devRef .tc main_v29) = val_main_v29 (F := Ideal) (arg1 m c) :=
  (W7_of_ne m ρ c main_v29 (by decide)).trans (W6_v29 m ρ c)
theorem W7_arg5 : W7 m ρ c (Proc.devRef .tc main_arg5) = arg5 m c :=
  (W7_of_ne m ρ c main_arg5 (by decide)).trans (W6_arg5 m ρ c)

/-! ## The second layer's messages, aggregated; the bias row -/

set_option maxHeartbeats 4000000 in
theorem W8_v59 : W8 m ρ c (Proc.devRef .tc main_v59) = val_main_v61 (F := Ideal) (arg0 m c) (arg1 m c) (arg2 m c) (arg3 m c) (arg4 m c) := by
  dsimp only [W8, hostOps3]
  after_results_simp
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  rw [W7_v46, W7_v3, W7_v6, W7_v29]
  rfl

theorem W8_v60 : W8 m ρ c (Proc.devRef .tc main_v60) = val_main_v62 (F := Ideal) (arg5 m c) := by
  dsimp only [W8, hostOps3]
  after_results_simp
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  rw [W7_arg5]
  exact Cert.RowOfVector.shapeCast_eq_broadcastInDim (n := 40) (by decide) _ _ _

/-! ## The last region: bias and log-softmax — the result -/

/-- The kernel program's result buffer ends at the reference's result stage of the arguments' launch contents. -/
theorem W9_v61 : W9 m ρ c (Proc.devRef .tc main_v61)
    = val_main_v65 (F := Ideal) (arg0 m c) (arg1 m c) (arg2 m c) (arg3 m c) (arg4 m c) (arg5 m c) := by
  refine (W9_arr m ρ c 2).trans ((arr3 (V8 m ρ) c).trans ?_)
  show biasLogSoftmax (F := Ideal) (W8 m ρ c (Proc.devRef .tc main_v59)) (W8 m ρ c (Proc.devRef .tc main_v60)) = _
  rw [W8_v59, W8_v60, result_eq]

end Cert.KernelIdeal.Whole

end
-- ==== Proof.lean ====
/-
  The certificate of a two-layer graph convolution: a kernel program of four regions among host operations
  against a plain reference, equal at the extended reals.

  Both programs build the same normalised adjacency: the edge lists with one self loop per node appended, the
  degree d(v) of every node as a scatter-add of ones over the targets, w(v) = d(v)^(-1/2) where d(v) > 0 and 0
  elsewhere, and the edge weight w(src)·w(dst). A layer is: a dense product of the node features with a weight
  matrix, a gather of the source rows, their scaling by the edge weight, a scatter-add into the target rows, a
  bias row added to every row, and then a clamp at zero (layer one) or the logarithm of the softmax of each row
  (layer two). The reference does all of it with host operations. The kernel program does the two products, the
  bias-and-clamp and the bias-and-log-softmax in regions that walk the 100000 rows in twenty blocks of 5000, and
  everything else with the same host operations as the reference.

  At the extended reals a change of float format is the identity and a product into a zero accumulator is the
  plain sum of products, so each region's output array is the reference's stage of the same name: row block t of
  a product is rows 5000·t … of the whole product; bias, clamp and log-softmax act row by row, and a row's
  maximum and sum are the same folds on both sides (the reference takes the maximum once more against −∞, which
  changes nothing). The host operations between the regions are the reference's own, so the kernel program's
  result buffer ends at the reference's result stage of the arguments (Proof/KValue.lean), which is what the
  reference's run ends at (Proof/RefValue.lean). No algebraic law beyond these identities is used, and the precondition is not opened.
  Nothing was rewritten by the idealization, so the fourth conjunct is trivial; the three frames are the
  programs' runs with the results dropped.
-/
import proofs.«102966_j41506563949058_1_alg».proof.Defs
import proofs.«102966_j41506563949058_1_alg».proof.Proof.Gen.Kernel
import proofs.«102966_j41506563949058_1_alg».proof.Proof.Gen.Kernel.Skeleton
import proofs.«102966_j41506563949058_1_alg».proof.Proof.Gen.Kernel.Launch
import proofs.«102966_j41506563949058_1_alg».proof.Proof.Gen.Kernel.Points
import proofs.«102966_j41506563949058_1_alg».proof.Proof.Gen.Kernel.Frame
import proofs.«102966_j41506563949058_1_alg».proof.Proof.Gen.KernelIdeal
import proofs.«102966_j41506563949058_1_alg».proof.Proof.Gen.KernelIdeal.Skeleton
import proofs.«102966_j41506563949058_1_alg».proof.Proof.Gen.KernelIdeal.Launch
import proofs.«102966_j41506563949058_1_alg».proof.Proof.Gen.KernelIdeal.Points
import proofs.«102966_j41506563949058_1_alg».proof.Proof.Gen.KernelIdeal.Frame
import proofs.«102966_j41506563949058_1_alg».proof.Proof.Gen.ReferenceIdeal
import proofs.«102966_j41506563949058_1_alg».proof.Proof.Gen.Pre_finite_inputs
import proofs.«102966_j41506563949058_1_alg».proof.Proof.RefRun
import proofs.«102966_j41506563949058_1_alg».proof.Proof.RefRead
import proofs.«102966_j41506563949058_1_alg».proof.Proof.RefValue
import proofs.«102966_j41506563949058_1_alg».proof.Proof.KRun
import proofs.«102966_j41506563949058_1_alg».proof.Proof.KValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments both programs end with the reference's result stage of the
    arguments in their result buffers. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.Whole.W9_v61 m ρ c), (h c).2⟩)
    (Cert.KernelIdeal.Whole.run_result (F := Ideal) m ρ), ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5⟩ := hagree c
  rw [Cert.ReferenceIdeal.Tail.result_stage m' c, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
